-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S16x64 : Shape := ⟨2, ![16, 64]⟩
abbrev S16 : Shape := ⟨1, ![16]⟩
abbrev S8x16 : Shape := ⟨2, ![8, 16]⟩
abbrev S8 : Shape := ⟨1, ![8]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8x16 .f32) (main_arg5 : FVec F S8x16 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S8x16 .f32 := Host.absf main_arg4
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8x16 .f32 := Host.absf main_arg5
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S50000x64 .f32) (main_arg1 : FVec F S16x64 .f32) (main_arg2 : FVec F S16x64 .f32) (main_arg3 : FVec F S16 .f32) (main_arg4 : FVec F S8x16 .f32) (main_arg5 : FVec F S8x16 .f32) (main_arg6 : FVec F S8 .f32) (main_arg7 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S50000x64 : Shape := ⟨2, ![50000, 64]⟩
abbrev S16x64 : Shape := ⟨2, ![16, 64]⟩
abbrev S16 : Shape := ⟨1, ![16]⟩
abbrev S8x16 : Shape := ⟨2, ![8, 16]⟩
abbrev S8 : Shape := ⟨1, ![8]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S64x16 : Shape := ⟨2, ![64, 16]⟩
abbrev S128x16 : Shape := ⟨2, ![128, 16]⟩
abbrev S1x16 : Shape := ⟨2, ![1, 16]⟩
abbrev S50000x16 : Shape := ⟨2, ![50000, 16]⟩
abbrev S2000x64 : Shape := ⟨2, ![2000, 64]⟩
abbrev S2000x1 : Shape := ⟨2, ![2000, 1]⟩
abbrev S2000x16 : Shape := ⟨2, ![2000, 16]⟩
abbrev S2000x128 : Shape := ⟨2, ![2000, 128]⟩
abbrev S800000x16 : Shape := ⟨2, ![800000, 16]⟩
abbrev S16x8 : Shape := ⟨2, ![16, 8]⟩
abbrev S32x8 : Shape := ⟨2, ![32, 8]⟩
abbrev S1x8 : Shape := ⟨2, ![1, 8]⟩
abbrev S50000x8 : Shape := ⟨2, ![50000, 8]⟩
abbrev S2000x8 : Shape := ⟨2, ![2000, 8]⟩
abbrev S2000x32 : Shape := ⟨2, ![2000, 32]⟩

abbrev nBuf : Space → Nat
  | .hbm => 61
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S16x64, .f32⟩
  | .hbm, ⟨2, _⟩ => ⟨S16x64, .f32⟩
  | .hbm, ⟨3, _⟩ => ⟨S16, .f32⟩
  | .hbm, ⟨4, _⟩ => ⟨S8x16, .f32⟩
  | .hbm, ⟨5, _⟩ => ⟨S8x16, .f32⟩
  | .hbm, ⟨6, _⟩ => ⟨S8, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S64x16, .f32⟩
  | .hbm, ⟨38, _⟩ => ⟨S64x16, .f32⟩
  | .hbm, ⟨39, _⟩ => ⟨S128x16, .f32⟩
  | .hbm, ⟨40, _⟩ => ⟨S1x16, .f32⟩
  | .hbm, ⟨41, _⟩ => ⟨S50000x16, .bf16⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x16, .bf16⟩
  | .hbm, ⟨51, _⟩ => ⟨S800000x16, .f32⟩
  | .hbm, ⟨52, _⟩ => ⟨S_, .f32⟩
  | .hbm, ⟨53, _⟩ => ⟨S50000x16, .f32⟩
  | .hbm, ⟨54, _⟩ => ⟨S800000x1, .i32⟩
  | .hbm, ⟨55, _⟩ => ⟨S50000x16, .f32⟩
  | .hbm, ⟨56, _⟩ => ⟨S16x8, .f32⟩
  | .hbm, ⟨57, _⟩ => ⟨S16x8, .f32⟩
  | .hbm, ⟨58, _⟩ => ⟨S32x8, .f32⟩
  | .hbm, ⟨59, _⟩ => ⟨S1x8, .f32⟩
  | .hbm, ⟨60, _⟩ => ⟨S50000x8, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S128x16, .f32⟩
  | .local _ .vmem, ⟨7, _⟩ => ⟨S1x16, .f32⟩
  | .local _ .vmem, ⟨8, _⟩ => ⟨S2000x16, .bf16⟩
  | .local _ .vmem, ⟨9, _⟩ => ⟨S2000x16, .bf16⟩
  | .local _ .vmem, ⟨10, _⟩ => ⟨S2000x16, .f32⟩
  | .local _ .vmem, ⟨11, _⟩ => ⟨S2000x16, .f32⟩
  | .local _ .vmem, ⟨12, _⟩ => ⟨S2000x16, .bf16⟩
  | .local _ .vmem, ⟨13, _⟩ => ⟨S2000x16, .bf16⟩
  | .local _ .vmem, ⟨14, _⟩ => ⟨S2000x1, .f32⟩
  | .local _ .vmem, ⟨15, _⟩ => ⟨S2000x1, .f32⟩
  | .local _ .vmem, ⟨16, _⟩ => ⟨S32x8, .f32⟩
  | .local _ .vmem, ⟨17, _⟩ => ⟨S1x8, .f32⟩
  | .local _ .vmem, ⟨18, _⟩ => ⟨S2000x8, .f32⟩
  | .local _ .vmem, ⟨19, _⟩ => ⟨S2000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x64 : S_.BroadcastsInDim S50000x64 (![] : Fin 0 → Fin S50000x64.rank)
  transposes_S16x64_S64x16_1_0 : S16x64.Transposes [1, 0] S64x16
  concatenates_S64x16_S64x16_S128x16_d0 : Shape.Concatenates [S64x16, S64x16] S128x16 0
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  concatenates_S2000x64_S2000x64_S2000x128_d1 : Shape.Concatenates [S2000x64, S2000x64] S2000x128 1
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  bcast_S_S50000x16 : S_.BroadcastsInDim S50000x16 (![] : Fin 0 → Fin S50000x16.rank)
  transposes_S8x16_S16x8_1_0 : S8x16.Transposes [1, 0] S16x8
  concatenates_S16x8_S16x8_S32x8_d0 : Shape.Concatenates [S16x8, S16x8] S32x8 0
  shapeCasts_S8_S1x8 : S8.ShapeCasts S1x8
  shapeCasts_S2000x16_S2000x16 : S2000x16.ShapeCasts S2000x16
  broadcasts_S2000x1_S2000x16 : S2000x1.Broadcasts S2000x16
  concatenates_S2000x16_S2000x16_S2000x32_d1 : Shape.Concatenates [S2000x16, S2000x16] S2000x32 1
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  scatter_S50000x1_S800000x1_S800000x1_1_0_0_1_wf : ScatterDims.WF S50000x1 S800000x1 S800000x1 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x128_S128x16_S2000x16_1_0_0_1_n_n_wf : DotDims.WF S2000x128 S128x16 S2000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S2000x32_S32x8_S2000x8_1_0_0_1_n_n_wf : DotDims.WF S2000x32 S32x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S50000x16.size a
  hwx0_5 : ∀ i : grid0.Coords, EltTy.bits .bf16 = 32 ∨ (Rect.block (s := S50000x16) S2000x16.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S50000x16.size a
  hwx1_0 : ∀ i : grid1.Coords, EltTy.bits .f32 = 32 ∨ (Rect.block (s := S50000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S50000x16.size a
  hwx1_1 : ∀ i : grid1.Coords, EltTy.bits .bf16 = 32 ∨ (Rect.block (s := S50000x16) S2000x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8.size a ≤ S32x8.size a
  hwx1_3 : ∀ i : grid1.Coords, EltTy.bits .f32 = 32 ∨ (Rect.block (s := S32x8) S32x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x8.size a ≤ S50000x8.size a
  hwx1_5 : ∀ i : grid1.Coords, EltTy.bits .f32 = 32 ∨ (Rect.block (s := S50000x8) S2000x8.size (cc1_transform_5 i) (hinb1_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S32x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S16x64 : Shape := ⟨2, ![16, 64]⟩
abbrev S16 : Shape := ⟨1, ![16]⟩
abbrev S8x16 : Shape := ⟨2, ![8, 16]⟩
abbrev S8 : Shape := ⟨1, ![8]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S64x16 : Shape := ⟨2, ![64, 16]⟩
abbrev S50000x16 : Shape := ⟨2, ![50000, 16]⟩
abbrev S1x16 : Shape := ⟨2, ![1, 16]⟩
abbrev S800000x16 : Shape := ⟨2, ![800000, 16]⟩
abbrev S16x8 : Shape := ⟨2, ![16, 8]⟩
abbrev S50000x8 : Shape := ⟨2, ![50000, 8]⟩
abbrev S1x8 : Shape := ⟨2, ![1, 8]⟩

abbrev nBuf : Space → Nat
  | .hbm => 79
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S16x64, .f32⟩
  | .hbm, ⟨2, _⟩ => ⟨S16x64, .f32⟩
  | .hbm, ⟨3, _⟩ => ⟨S16, .f32⟩
  | .hbm, ⟨4, _⟩ => ⟨S8x16, .f32⟩
  | .hbm, ⟨5, _⟩ => ⟨S8x16, .f32⟩
  | .hbm, ⟨6, _⟩ => ⟨S8, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x16, .f32⟩
  | .hbm, ⟨37, _⟩ => ⟨S50000x16, .f32⟩
  | .hbm, ⟨38, _⟩ => ⟨S64x16, .f32⟩
  | .hbm, ⟨39, _⟩ => ⟨S50000x16, .f32⟩
  | .hbm, ⟨40, _⟩ => ⟨S50000x16, .f32⟩
  | .hbm, ⟨41, _⟩ => ⟨S1x16, .f32⟩
  | .hbm, ⟨42, _⟩ => ⟨S50000x16, .f32⟩
  | .hbm, ⟨43, _⟩ => ⟨S50000x16, .f32⟩
  | .hbm, ⟨44, _⟩ => ⟨S_, .f32⟩
  | .hbm, ⟨45, _⟩ => ⟨S50000x16, .f32⟩
  | .hbm, ⟨46, _⟩ => ⟨S50000x16, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x16, .f32⟩
  | .hbm, ⟨56, _⟩ => ⟨S_, .f32⟩
  | .hbm, ⟨57, _⟩ => ⟨S50000x16, .f32⟩
  | .hbm, ⟨58, _⟩ => ⟨S800000x1, .i32⟩
  | .hbm, ⟨59, _⟩ => ⟨S50000x16, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x16, .f32⟩
  | .hbm, ⟨70, _⟩ => ⟨S50000x16, .f32⟩
  | .hbm, ⟨71, _⟩ => ⟨S16x8, .f32⟩
  | .hbm, ⟨72, _⟩ => ⟨S50000x8, .f32⟩
  | .hbm, ⟨73, _⟩ => ⟨S16x8, .f32⟩
  | .hbm, ⟨74, _⟩ => ⟨S50000x8, .f32⟩
  | .hbm, ⟨75, _⟩ => ⟨S50000x8, .f32⟩
  | .hbm, ⟨76, _⟩ => ⟨S1x8, .f32⟩
  | .hbm, ⟨77, _⟩ => ⟨S50000x8, .f32⟩
  | .hbm, ⟨78, _⟩ => ⟨S50000x8, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S16x64_S64x16_1_0 : S16x64.Transposes [1, 0] S64x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  transposes_S8x16_S16x8_1_0 : S8x16.Transposes [1, 0] S16x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x8_S50000x8_1_0_0_1_n_n_wf : DotDims.WF S50000x16 S16x8 S50000x8 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x8_S50000x8_1_0_0_1_n_n : DotDims S50000x16 S16x8 S50000x8 where
  lhsContracting := [1]
  rhsContracting := [0]
  lhsNonContracting := [0]
  rhsNonContracting := [1]
  lhsBatch := []
  rhsBatch := []
  wf := dot_S50000x16_S16x8_S50000x8_1_0_0_1_n_n_wf

class Facts : Prop extends Facts₀ where

variable [Facts]
-- ==== Proof.KernelRun.lean ====
/-
  The idealized kernel program's run with its result kept.

  The program is a stretch of host operations, a pipelined kernel region, a second stretch and a second region. Its buffers' contents at
  each boundary are a fold from the launch memory: a stretch of host operations applies them in order, a region
  leaves each of its arrays at what its write-backs give and every other buffer as it found it. Every weakly fair
  execution terminates, nothing faulting, in a state whose unscoped buffers hold the last stage of that fold, so in
  particular the result buffer holds the fold's value there and the argument arrays are as launched.
-/
import proofs.«147972_j29446295781810_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    argument arrays as launched. -/
theorem run_result : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibJoinColumns.lean ====
/-
  Two matrices with the same number of rows joined side by side, read at an entry.

  A concatenation along the column axis of an `[R, a]` matrix and an `[R, b]` matrix into an `[R, n]` one reads, at
  `(r, k')`, the first matrix at `(r, k)` when `k' = k` is one of its `a` columns, and the second at `(r, k)` when
  `k' = a + k`. Any extents and element type; imports only the library.
-/
import Idealize.ShloMosaic.Lib.Pipeline.Value
import Idealize.ShloMosaic.Lib.ValueIdx

namespace Idealize.ShloMosaic.JoinColumns

open Idealize.ShloMosaic Idealize.ShloMosaic.ValueIdx

variable {α : Type}

/-- A column of the first matrix. -/
theorem left_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin a) (k' : Fin n) (hk : k'.val = k.val) :
    concatenate ⟨2, ![R, n]⟩ (1 : Fin 2) [⟨⟨2, ![R, a]⟩, x⟩, ⟨⟨2, ![R, b]⟩, y⟩] h (ix2 r k') = x (ix2 r k) :=
  concatenate_pair_apply_left (1 : Fin 2) x y h (ix2 r k') rfl (ix2 r k) (fun c => match c with
    | ⟨0, _⟩ => rfl
    | ⟨1, _⟩ => hk.symm)

/-- A column of the second matrix. -/
theorem right_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin b) (k' : Fin n) (hk : k'.val = a + k.val) :
    concatenate ⟨2, ![R, n]⟩ (1 : Fin 2) [⟨⟨2, ![R, a]⟩, x⟩, ⟨⟨2, ![R, b]⟩, y⟩] h (ix2 r k') = y (ix2 r k) :=
  concatenate_pair_apply_right (1 : Fin 2) x y h (ix2 r k') rfl rfl (ix2 r k)
    (fun c hc => match c, hc with
      | ⟨0, _⟩, _ => rfl
      | ⟨1, _⟩, hc => absurd rfl hc)
    (by show k.val + a = k'.val; omega)

end Idealize.ShloMosaic.JoinColumns
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.LayerOne.lean ====
/-
  The first layer's kernel region: what its result array holds after the region, as one function of the five arrays the
  region finds.

  The grid has 25 points; point `t` works on rows `2000·t … 2000·t + 1999`. At a row `p` the body multiplies the row of
  neighbour sums by the row's scale, joins it side by side with the row of features into a row of length 128,
  multiplies that by the `128 × 16` stacked weight, adds the bias row and takes the maximum with zero; the format
  changes on the way are the identity on the extended reals. A sum over the 128 joined columns is the sum over the
  first 64 plus the sum over the last 64, so entry `(p, q)` is
  `max ((∑ₖ (s(p,k)·d(p))·w(k,q) + ∑ₖ f(p,k)·w(64+k,q)) + b(q)) 0`: a function of row `p` of the three row-tiled
  arrays and of the whole weight and bias. Every point writes its block back and the 25 blocks tile the 50000 rows, so
  the array after the region is that function everywhere.
-/
import proofs.«147972_j29446295781810_2_alg».proof.Proof.Gen.KernelIdeal.Frame
import proofs.«147972_j29446295781810_2_alg».proof.Proof.LibJoinColumns
import proofs.«147972_j29446295781810_2_alg».proof.Proof.LibMatmulRowsByCols
import proofs.«147972_j29446295781810_2_alg».proof.Proof.LibColumnLayout
import proofs.«147972_j29446295781810_2_alg».proof.Proof.LibOneRowMatrix
import Idealize.ShloMosaic.Lib.Pipeline.Value
import Idealize.ShloMosaic.Lib.ValueIdx
import Idealize.ShloMosaic.PureOps.Ideal.Laws

set_option maxRecDepth 16384

noncomputable section

namespace Cert.KernelIdeal.LayerOne

open Cert.KernelIdeal Cert.KernelIdeal.Gen
open Idealize.ShloMosaic Idealize.ShloMosaic.TcCoe Idealize.ShloMosaic.ValueIdx Idealize.SL.Sem

/-- Column `k` of the first half of the joined row. -/
abbrev lo (k : Fin 64) : Fin 128 := ⟨k.val, by omega⟩
/-- Column `k` of the second half of the joined row. -/
abbrev hi (k : Fin 64) : Fin 128 := ⟨64 + k.val, by omega⟩

/-- One row of the layer: from the row of neighbour sums `s`, the row of features `f`, the row's scale `d`, the
    stacked weight `w` and the bias `b`, entry `q`. -/
def row (s f : Fin 64 → EReal) (d : EReal) (w : Fin 128 → Fin 16 → EReal) (b : Fin 16 → EReal) (q : Fin 16) : EReal :=
  max ((∑ k : Fin 64, (s k * d) * w (lo k) q + ∑ k : Fin 64, f k * w (hi k) q) + b q) (Ideal.ofBits .f32 0x00000000#32)

theorem row_congr {s s' f f' : Fin 64 → EReal} {d d' : EReal} {w w' : Fin 128 → Fin 16 → EReal} {b b' : Fin 16 → EReal}
    (hs : s = s') (hf : f = f') (hd : d = d') (hw : w = w') (hb : b = b') (q : Fin 16) :
    row s f d w b q = row s' f' d' w' b' q := by subst hs hf hd hw hb; rfl

/-- The whole result array as a function of the five arrays the region reads. -/
def G0 (a0 a1 : S50000x64.Idx → EReal) (a2 : S50000x1.Idx → EReal) (a3 : S128x16.Idx → EReal) (a4 : S1x16.Idx → EReal) :
    S50000x16.Idx → EReal := fun i =>
  row (fun k => a0 (ix2 (i 0) k)) (fun k => a1 (ix2 (i 0) k)) (a2 (ix2 (i 0) (0 : Fin 1)))
    (fun k q => a3 (ix2 k q)) (fun q => a4 (ix2 (0 : Fin 1) q)) (i 1)

/-! ## The matrix product's index maps -/

/-- The product's dimension record: `[2000, 128]` by `[128, 16]`, contracting the 128. -/
abbrev D0 : DotDims S2000x128 S128x16 S2000x16 := dot_S2000x128_S128x16_S2000x16_1_0_0_1_n_n

theorem lhs_0 (i : S2000x16.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem lhs_1 (i : S2000x16.Idx) (q : D0.contr.Idx) : (D0.lhsIdx i q 1).val = (q ⟨0, by decide⟩).val :=
  D0.lhsIdx_val_of_single rfl i q
theorem rhs_0 (i : S2000x16.Idx) (q : D0.contr.Idx) : (D0.rhsIdx i q 0).val = (q ⟨0, by decide⟩).val :=
  D0.rhsIdx_val_of_single rfl i q
theorem rhs_1 (i : S2000x16.Idx) (q : D0.contr.Idx) : (D0.rhsIdx i q 1).val = (i 1).val := by
  unfold DotDims.rhsIdx
  rw [dif_neg (show ¬(1 : Fin S128x16.rank) ∈ D0.rhsBatch by decide), dif_pos (show (1 : Fin S128x16.rank) ∈ D0.rhsNonContracting by decide)]
  rfl

/-! ## The body's stored value at an entry -/

/-- Entry `(r, q)` of what the body stores is the layer's row `r` of the loaded blocks. -/
theorem pay_apply (x0 x1 : Vec Ideal S2000x64 .f32) (x2 : Vec Ideal S2000x1 .f32) (x3 : Vec Ideal S128x16 .f32)
    (x4 : Vec Ideal S1x16 .f32) (r : Fin 2000) (q : Fin 16) :
    k0_pay1 x0 x2 x1 x3 x4 (ix2 r q)
      = row (fun k => x0 (ix2 r k)) (fun k => x1 (ix2 r k)) (x2 (ix2 r (0 : Fin 1))) (fun k q => x3 (ix2 k q))
          (fun q => x4 (ix2 (0 : Fin 1) q)) q := by
  have split : ∀ g : Fin 128 → EReal, ∑ k : Fin 128, g k = ∑ k : Fin 64, g (lo k) + ∑ k : Fin 64, g (hi k) :=
    fun g => Fin.sum_univ_add (a := 64) (b := 64) g
  unfold k0_pay1 row
  dsimp only
  rw [truncf_apply, maximumf_apply, addf_apply, broadcast_apply, OneRowMatrix.broadcast_row_apply,
    MatmulRowsByCols.matmul_zero_apply D0 rfl rfl lhs_0 lhs_1 rhs_0 rhs_1, split]
  refine congrArg₂ max (congrArg₂ (· + ·) (congrArg₂ (· + ·) (Finset.sum_congr rfl fun k _ => ?_)
    (Finset.sum_congr rfl fun k _ => ?_)) (by rw [shapeCast_self])) rfl
  · rw [truncf_apply, truncf_apply, JoinColumns.left_apply _ _ _ r k (lo k) rfl, mulf_apply, broadcastTo_a1_ab_apply]
    simp only [shapeCast_self]
  · rw [truncf_apply, truncf_apply, JoinColumns.right_apply _ _ _ r k (hi k) rfl]
    simp only [shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-tiled inputs and the output take block `t` of the rows, the
    weight and the bias their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's function of the arrays the region finds. -/
theorem flushed_eq (c : Dev nD) (t : Fin cfg0.N) :
    (dat0 V c).flushed 5 t = ((cfg0.win 5).blk t).view.read (Elt Ideal)
      (G0 (V c main_v21) (V c main_arg0) (V c main_v11) (V c main_v24) (V c main_v25)) := by
  show (cfg0.win 5).cut (grid0.coords t) ((dat0 V c).after 5 t) = _
  rw [after0_5]
  unfold out0_5
  rw [View.canon_unit_zero hz]
  simp only [View.ld_unit_zero (S := S2000x64) hz, View.ld_unit_zero (S := S2000x1) hz,
    View.ld_unit_zero (S := S128x16) hz, View.ld_unit_zero (S := S1x16) hz]
  obtain ⟨e00, e01, e10, e11, e20, e21, e30, e31, e40, e41, e50, e51⟩ := idx_facts t
  have ht : t.val < 25 := t.isLt
  funext j
  obtain ⟨r, q, rfl⟩ : ∃ (r : Fin 2000) (q : Fin 16), j = ix2 r q := ⟨j 0, j 1, eq_ix2 j⟩
  refine (pay_apply (iblk0 V c 0 t) (iblk0 V c 1 t) (iblk0 V c 2 t) (iblk0 V c 3 t) (iblk0 V c 4 t) r q).trans ?_
  show _ = row (fun k => V c main_v21 (ix2 ((((cfg0.win 5).blk t).view.emb (ix2 r q)) 0) k))
      (fun k => V c main_arg0 (ix2 ((((cfg0.win 5).blk t).view.emb (ix2 r q)) 0) k))
      (V c main_v11 (ix2 ((((cfg0.win 5).blk t).view.emb (ix2 r q)) 0) (0 : Fin 1)))
      (fun k q => V c main_v24 (ix2 k q)) (fun q => V c main_v25 (ix2 (0 : Fin 1) q))
      ((((cfg0.win 5).blk t).view.emb (ix2 r q)) 1)
  have hq : (((cfg0.win 5).blk t).view.emb (ix2 r q)) 1 = q := Fin.ext (by
    show win0_5.index t (1 : Fin 2) * 16 + 1 * q.val = q.val; omega)
  have hp : ((((cfg0.win 5).blk t).view.emb (ix2 r q)) 0).val = t.val * 2000 + r.val := by
    show win0_5.index t (0 : Fin 2) * 2000 + 1 * r.val = _; omega
  rw [hq]
  refine row_congr (funext fun k => ?_) (funext fun k => ?_) ?_ (funext fun k => funext fun q' => ?_) (funext fun q' => ?_) q
  · show V c main_v21 (((cfg0.win 0).blk t).view.emb (ix2 r k)) = _
    refine congrArg (V c main_v21) (funext fun a => Fin.ext ?_)
    match a with
    | ⟨0, _⟩ => show win0_0.index t (0 : Fin 2) * 2000 + 1 * r.val = _; rw [show ((ix2 ((((cfg0.win 5).blk t).view.emb (ix2 r q)) 0) k : S50000x64.Idx) ⟨0, by decide⟩).val = ((((cfg0.win 5).blk t).view.emb (ix2 r q)) 0).val from rfl, hp]; omega
    | ⟨1, _⟩ => show win0_0.index t (1 : Fin 2) * 64 + 1 * k.val = k.val; omega
  · show V c main_arg0 (((cfg0.win 1).blk t).view.emb (ix2 r k)) = _
    refine congrArg (V c main_arg0) (funext fun a => Fin.ext ?_)
    match a with
    | ⟨0, _⟩ => show win0_1.index t (0 : Fin 2) * 2000 + 1 * r.val = _; rw [show ((ix2 ((((cfg0.win 5).blk t).view.emb (ix2 r q)) 0) k : S50000x64.Idx) ⟨0, by decide⟩).val = ((((cfg0.win 5).blk t).view.emb (ix2 r q)) 0).val from rfl, hp]; omega
    | ⟨1, _⟩ => show win0_1.index t (1 : Fin 2) * 64 + 1 * k.val = k.val; omega
  · show V c main_v11 (((cfg0.win 2).blk t).view.emb (ix2 r (0 : Fin 1))) = _
    refine congrArg (V c main_v11) (funext fun a => Fin.ext ?_)
    match a with
    | ⟨0, _⟩ => show win0_2.index t (0 : Fin 2) * 2000 + 1 * r.val = _; rw [show ((ix2 ((((cfg0.win 5).blk t).view.emb (ix2 r q)) 0) (0 : Fin 1) : S50000x1.Idx) ⟨0, by decide⟩).val = ((((cfg0.win 5).blk t).view.emb (ix2 r q)) 0).val from rfl, hp]; omega
    | ⟨1, _⟩ => show win0_2.index t (1 : Fin 2) * 1 + 1 * 0 = 0; omega
  · show V c main_v24 (((cfg0.win 3).blk t).view.emb (ix2 k q')) = _
    refine congrArg (V c main_v24) (funext fun a => Fin.ext ?_)
    match a with
    | ⟨0, _⟩ => show win0_3.index t (0 : Fin 2) * 128 + 1 * k.val = k.val; omega
    | ⟨1, _⟩ => show win0_3.index t (1 : Fin 2) * 16 + 1 * q'.val = q'.val; omega
  · show V c main_v25 (((cfg0.win 4).blk t).view.emb (ix2 (0 : Fin 1) q')) = _
    refine congrArg (V c main_v25) (funext fun a => Fin.ext ?_)
    match a with
    | ⟨0, _⟩ => show win0_4.index t (0 : Fin 2) * 1 + 1 * 0 = 0; omega
    | ⟨1, _⟩ => show win0_4.index t (1 : Fin 2) * 16 + 1 * q'.val = q'.val; omega

/-- An index of the result array is in point `t`'s block iff each coordinate is in the block's range on its axis. -/
theorem mem_blk (t : Fin cfg0.N) (i : S50000x16.Idx) :
    i ∈ ((cfg0.win 5).blk t).view.set ↔ ∀ a : Fin 2, win0_5.index t a * S2000x16.size a ≤ (i a).val
      ∧ (i a).val < win0_5.index t a * S2000x16.size a + S2000x16.size a := by
  show i ∈ ((View.whole main_v26).slice (win0_5.rect t)).set ↔ _
  rw [View.set_slice_whole, Rect.mem_set_unit]
  exact Iff.rfl

/-- Row `p` lies in the block of point `p / 2000`: the blocks tile the array. -/
theorem cover (i : S50000x16.Idx) :
    ∃ t : Fin cfg0.N, (cfg0.win 5).flush t = true ∧ i ∈ ((cfg0.win 5).blk t).view.set := by
  have hi0 : (i 0).val < 50000 := (i 0).isLt
  have hi1 : (i 1).val < 16 := (i 1).isLt
  have hlt : (i 0).val / 2000 < 25 := by omega
  refine ⟨⟨(i 0).val / 2000, hlt⟩, flush0_5 _, ?_⟩
  rw [mem_blk]
  obtain ⟨-, -, -, -, -, -, -, -, -, -, e50, e51⟩ := idx_facts ⟨(i 0).val / 2000, hlt⟩
  have e50' : win0_5.index ⟨(i 0).val / 2000, hlt⟩ (0 : Fin 2) = (i 0).val / 2000 := e50
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    omega
  | ⟨1, _⟩ =>
    show win0_5.index ⟨(i 0).val / 2000, hlt⟩ (1 : Fin 2) * 16 ≤ (i 1).val
      ∧ (i 1).val < win0_5.index ⟨(i 0).val / 2000, hlt⟩ (1 : Fin 2) * 16 + 16
    omega

/-- The result array after the region is the layer's function of the arrays the region finds. -/
theorem final (c : Dev nD) :
    (dat0 V c).arrAt 5 cfg0.N = G0 (V c main_v21) (V c main_arg0) (V c main_v11) (V c main_v24) (V c main_v25) :=
  (dat0 V c).arrAt_eq_of_cover 5 _ (fun t _ => flushed_eq V c t) cover

end Cert.KernelIdeal.LayerOne

end
-- ==== Proof.LayerTwo.lean ====
/-
  The second layer's kernel region: what the program's result array holds after the region, as one function of the
  five arrays the region finds.

  The grid has 25 points; point `t` works on rows `2000·t … 2000·t + 1999`. At a row `p` the body multiplies the row of
  neighbour sums by the row's scale, joins it side by side with the row of hidden features (stored in a narrower
  format and widened back: the identity on the extended reals) into a row of length 32, multiplies that by the
  `32 × 8` stacked weight and adds the bias row. A sum over the 32 joined columns is the sum over the first 16 plus the
  sum over the last 16, so entry `(p, q)` is `(∑ₖ (s(p,k)·d(p))·w(k,q) + ∑ₖ f(p,k)·w(16+k,q)) + b(q)`: a function of
  row `p` of the three row-tiled arrays and of the whole weight and bias. Every point writes its block back and the 25
  blocks tile the 50000 rows, so the array after the region is that function everywhere.
-/
import proofs.«147972_j29446295781810_2_alg».proof.Proof.Gen.KernelIdeal.Frame
import proofs.«147972_j29446295781810_2_alg».proof.Proof.LibJoinColumns
import proofs.«147972_j29446295781810_2_alg».proof.Proof.LibMatmulRowsByCols
import proofs.«147972_j29446295781810_2_alg».proof.Proof.LibColumnLayout
import proofs.«147972_j29446295781810_2_alg».proof.Proof.LibOneRowMatrix
import Idealize.ShloMosaic.Lib.Pipeline.Value
import Idealize.ShloMosaic.Lib.ValueIdx
import Idealize.ShloMosaic.PureOps.Ideal.Laws

set_option maxRecDepth 16384

noncomputable section

namespace Cert.KernelIdeal.LayerTwo

open Cert.KernelIdeal Cert.KernelIdeal.Gen
open Idealize.ShloMosaic Idealize.ShloMosaic.TcCoe Idealize.ShloMosaic.ValueIdx Idealize.SL.Sem

/-- Column `k` of the first half of the joined row. -/
abbrev lo (k : Fin 16) : Fin 32 := ⟨k.val, by omega⟩
/-- Column `k` of the second half of the joined row. -/
abbrev hi (k : Fin 16) : Fin 32 := ⟨16 + k.val, by omega⟩

/-- One row of the layer: from the row of neighbour sums `s`, the row of features `f`, the row's scale `d`, the
    stacked weight `w` and the bias `b`, entry `q`. -/
def row (s f : Fin 16 → EReal) (d : EReal) (w : Fin 32 → Fin 8 → EReal) (b : Fin 8 → EReal) (q : Fin 8) : EReal :=
  (∑ k : Fin 16, (s k * d) * w (lo k) q + ∑ k : Fin 16, f k * w (hi k) q) + b q

theorem row_congr {s s' f f' : Fin 16 → EReal} {d d' : EReal} {w w' : Fin 32 → Fin 8 → EReal} {b b' : Fin 8 → EReal}
    (hs : s = s') (hf : f = f') (hd : d = d') (hw : w = w') (hb : b = b') (q : Fin 8) :
    row s f d w b q = row s' f' d' w' b' q := by subst hs hf hd hw hb; rfl

/-- The whole result array as a function of the five arrays the region reads. -/
def G1 (a0 a1 : S50000x16.Idx → EReal) (a2 : S50000x1.Idx → EReal) (a3 : S32x8.Idx → EReal) (a4 : S1x8.Idx → EReal) :
    S50000x8.Idx → EReal := fun i =>
  row (fun k => a0 (ix2 (i 0) k)) (fun k => a1 (ix2 (i 0) k)) (a2 (ix2 (i 0) (0 : Fin 1)))
    (fun k q => a3 (ix2 k q)) (fun q => a4 (ix2 (0 : Fin 1) q)) (i 1)

/-! ## The matrix product's index maps -/

/-- The product's dimension record: `[2000, 32]` by `[32, 8]`, contracting the 32. -/
abbrev D1 : DotDims S2000x32 S32x8 S2000x8 := dot_S2000x32_S32x8_S2000x8_1_0_0_1_n_n

theorem lhs_0 (i : S2000x8.Idx) (q : D1.contr.Idx) : (D1.lhsIdx i q 0).val = (i 0).val := by
  unfold DotDims.lhsIdx
  rw [dif_neg (show ¬(0 : Fin S2000x32.rank) ∈ D1.lhsBatch by decide), dif_pos (show (0 : Fin S2000x32.rank) ∈ D1.lhsNonContracting by decide)]
  rfl
theorem lhs_1 (i : S2000x8.Idx) (q : D1.contr.Idx) : (D1.lhsIdx i q 1).val = (q ⟨0, by decide⟩).val :=
  D1.lhsIdx_val_of_single rfl i q
theorem rhs_0 (i : S2000x8.Idx) (q : D1.contr.Idx) : (D1.rhsIdx i q 0).val = (q ⟨0, by decide⟩).val :=
  D1.rhsIdx_val_of_single rfl i q
theorem rhs_1 (i : S2000x8.Idx) (q : D1.contr.Idx) : (D1.rhsIdx i q 1).val = (i 1).val := by
  unfold DotDims.rhsIdx
  rw [dif_neg (show ¬(1 : Fin S32x8.rank) ∈ D1.rhsBatch by decide), dif_pos (show (1 : Fin S32x8.rank) ∈ D1.rhsNonContracting by decide)]
  rfl

/-! ## The body's stored value at an entry -/

/-- Entry `(r, q)` of what the body stores is the layer's row `r` of the loaded blocks. -/
theorem pay_apply (x0 : Vec Ideal S2000x16 .f32) (x1 : Vec Ideal S2000x16 .bf16) (x2 : Vec Ideal S2000x1 .f32) (x3 : Vec Ideal S32x8 .f32)
    (x4 : Vec Ideal S1x8 .f32) (r : Fin 2000) (q : Fin 8) :
    k1_pay1 x0 x2 x1 x3 x4 (ix2 r q)
      = row (fun k => x0 (ix2 r k)) (fun k => x1 (ix2 r k)) (x2 (ix2 r (0 : Fin 1))) (fun k q => x3 (ix2 k q))
          (fun q => x4 (ix2 (0 : Fin 1) q)) q := by
  have split : ∀ g : Fin 32 → EReal, ∑ k : Fin 32, g k = ∑ k : Fin 16, g (lo k) + ∑ k : Fin 16, g (hi k) :=
    fun g => Fin.sum_univ_add (a := 16) (b := 16) g
  unfold k1_pay1 row
  dsimp only
  rw [addf_apply, OneRowMatrix.broadcast_row_apply,
    MatmulRowsByCols.matmul_zero_apply D1 rfl rfl lhs_0 lhs_1 rhs_0 rhs_1, split]
  refine congrArg₂ (· + ·) (congrArg₂ (· + ·) (Finset.sum_congr rfl fun k _ => ?_)
    (Finset.sum_congr rfl fun k _ => ?_)) (by rw [shapeCast_self])
  · rw [truncf_apply, truncf_apply, JoinColumns.left_apply _ _ _ r k (lo k) rfl, mulf_apply, broadcastTo_a1_ab_apply]
    simp only [shapeCast_self]
  · rw [truncf_apply, truncf_apply, JoinColumns.right_apply _ _ _ r k (hi k) rfl, extf_apply]
    simp only [shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-tiled inputs and the output take block `t` of the rows, the
    weight and the bias their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's function of the arrays the region finds. -/
theorem flushed_eq (c : Dev nD) (t : Fin cfg1.N) :
    (dat1 V c).flushed 5 t = ((cfg1.win 5).blk t).view.read (Elt Ideal)
      (G1 (V c main_v37) (V c main_v26) (V c main_v11) (V c main_v40) (V c main_v41)) := by
  show (cfg1.win 5).cut (grid1.coords t) ((dat1 V c).after 5 t) = _
  rw [after1_5]
  unfold out1_5
  rw [View.canon_unit_zero hz]
  simp only [View.ld_unit_zero (S := S2000x16) hz, View.ld_unit_zero (S := S2000x1) hz,
    View.ld_unit_zero (S := S32x8) hz, View.ld_unit_zero (S := S1x8) hz]
  obtain ⟨e00, e01, e10, e11, e20, e21, e30, e31, e40, e41, e50, e51⟩ := idx_facts t
  have ht : t.val < 25 := t.isLt
  funext j
  obtain ⟨r, q, rfl⟩ : ∃ (r : Fin 2000) (q : Fin 8), j = ix2 r q := ⟨j 0, j 1, eq_ix2 j⟩
  refine (pay_apply (iblk1 V c 0 t) (iblk1 V c 1 t) (iblk1 V c 2 t) (iblk1 V c 3 t) (iblk1 V c 4 t) r q).trans ?_
  show _ = row (fun k => V c main_v37 (ix2 ((((cfg1.win 5).blk t).view.emb (ix2 r q)) 0) k))
      (fun k => V c main_v26 (ix2 ((((cfg1.win 5).blk t).view.emb (ix2 r q)) 0) k))
      (V c main_v11 (ix2 ((((cfg1.win 5).blk t).view.emb (ix2 r q)) 0) (0 : Fin 1)))
      (fun k q => V c main_v40 (ix2 k q)) (fun q => V c main_v41 (ix2 (0 : Fin 1) q))
      ((((cfg1.win 5).blk t).view.emb (ix2 r q)) 1)
  have hq : (((cfg1.win 5).blk t).view.emb (ix2 r q)) 1 = q := Fin.ext (by
    show win1_5.index t (1 : Fin 2) * 8 + 1 * q.val = q.val; omega)
  have hp : ((((cfg1.win 5).blk t).view.emb (ix2 r q)) 0).val = t.val * 2000 + r.val := by
    show win1_5.index t (0 : Fin 2) * 2000 + 1 * r.val = _; omega
  rw [hq]
  refine row_congr (funext fun k => ?_) (funext fun k => ?_) ?_ (funext fun k => funext fun q' => ?_) (funext fun q' => ?_) q
  · show V c main_v37 (((cfg1.win 0).blk t).view.emb (ix2 r k)) = _
    refine congrArg (V c main_v37) (funext fun a => Fin.ext ?_)
    match a with
    | ⟨0, _⟩ => show win1_0.index t (0 : Fin 2) * 2000 + 1 * r.val = _; rw [show ((ix2 ((((cfg1.win 5).blk t).view.emb (ix2 r q)) 0) k : S50000x16.Idx) ⟨0, by decide⟩).val = ((((cfg1.win 5).blk t).view.emb (ix2 r q)) 0).val from rfl, hp]; omega
    | ⟨1, _⟩ => show win1_0.index t (1 : Fin 2) * 16 + 1 * k.val = k.val; omega
  · show V c main_v26 (((cfg1.win 1).blk t).view.emb (ix2 r k)) = _
    refine congrArg (V c main_v26) (funext fun a => Fin.ext ?_)
    match a with
    | ⟨0, _⟩ => show win1_1.index t (0 : Fin 2) * 2000 + 1 * r.val = _; rw [show ((ix2 ((((cfg1.win 5).blk t).view.emb (ix2 r q)) 0) k : S50000x16.Idx) ⟨0, by decide⟩).val = ((((cfg1.win 5).blk t).view.emb (ix2 r q)) 0).val from rfl, hp]; omega
    | ⟨1, _⟩ => show win1_1.index t (1 : Fin 2) * 16 + 1 * k.val = k.val; omega
  · show V c main_v11 (((cfg1.win 2).blk t).view.emb (ix2 r (0 : Fin 1))) = _
    refine congrArg (V c main_v11) (funext fun a => Fin.ext ?_)
    match a with
    | ⟨0, _⟩ => show win1_2.index t (0 : Fin 2) * 2000 + 1 * r.val = _; rw [show ((ix2 ((((cfg1.win 5).blk t).view.emb (ix2 r q)) 0) (0 : Fin 1) : S50000x1.Idx) ⟨0, by decide⟩).val = ((((cfg1.win 5).blk t).view.emb (ix2 r q)) 0).val from rfl, hp]; omega
    | ⟨1, _⟩ => show win1_2.index t (1 : Fin 2) * 1 + 1 * 0 = 0; omega
  · show V c main_v40 (((cfg1.win 3).blk t).view.emb (ix2 k q')) = _
    refine congrArg (V c main_v40) (funext fun a => Fin.ext ?_)
    match a with
    | ⟨0, _⟩ => show win1_3.index t (0 : Fin 2) * 32 + 1 * k.val = k.val; omega
    | ⟨1, _⟩ => show win1_3.index t (1 : Fin 2) * 8 + 1 * q'.val = q'.val; omega
  · show V c main_v41 (((cfg1.win 4).blk t).view.emb (ix2 (0 : Fin 1) q')) = _
    refine congrArg (V c main_v41) (funext fun a => Fin.ext ?_)
    match a with
    | ⟨0, _⟩ => show win1_4.index t (0 : Fin 2) * 1 + 1 * 0 = 0; omega
    | ⟨1, _⟩ => show win1_4.index t (1 : Fin 2) * 8 + 1 * q'.val = q'.val; omega

/-- An index of the result array is in point `t`'s block iff each coordinate is in the block's range on its axis. -/
theorem mem_blk (t : Fin cfg1.N) (i : S50000x8.Idx) :
    i ∈ ((cfg1.win 5).blk t).view.set ↔ ∀ a : Fin 2, win1_5.index t a * S2000x8.size a ≤ (i a).val
      ∧ (i a).val < win1_5.index t a * S2000x8.size a + S2000x8.size a := by
  show i ∈ ((View.whole main_v42).slice (win1_5.rect t)).set ↔ _
  rw [View.set_slice_whole, Rect.mem_set_unit]
  exact Iff.rfl

/-- Row `p` lies in the block of point `p / 2000`: the blocks tile the array. -/
theorem cover (i : S50000x8.Idx) :
    ∃ t : Fin cfg1.N, (cfg1.win 5).flush t = true ∧ i ∈ ((cfg1.win 5).blk t).view.set := by
  have hi0 : (i 0).val < 50000 := (i 0).isLt
  have hi1 : (i 1).val < 8 := (i 1).isLt
  have hlt : (i 0).val / 2000 < 25 := by omega
  refine ⟨⟨(i 0).val / 2000, hlt⟩, flush1_5 _, ?_⟩
  rw [mem_blk]
  obtain ⟨-, -, -, -, -, -, -, -, -, -, e50, e51⟩ := idx_facts ⟨(i 0).val / 2000, hlt⟩
  have e50' : win1_5.index ⟨(i 0).val / 2000, hlt⟩ (0 : Fin 2) = (i 0).val / 2000 := e50
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    omega
  | ⟨1, _⟩ =>
    show win1_5.index ⟨(i 0).val / 2000, hlt⟩ (1 : Fin 2) * 8 ≤ (i 1).val
      ∧ (i 1).val < win1_5.index ⟨(i 0).val / 2000, hlt⟩ (1 : Fin 2) * 8 + 8
    omega

/-- The result array after the region is the layer's function of the arrays the region finds. -/
theorem final (c : Dev nD) :
    (dat1 V c).arrAt 5 cfg1.N = G1 (V c main_v37) (V c main_v26) (V c main_v11) (V c main_v40) (V c main_v41) :=
  (dat1 V c).arrAt_eq_of_cover 5 _ (fun t _ => flushed_eq V c t) cover

end Cert.KernelIdeal.LayerTwo

end
-- ==== Proof.KernelArrays.lean ====
/-
  The arrays the two kernel regions find, as functions of the launch arguments, and the program's result in terms of
  them.

  The host operations before the first region compute, from the argument arrays alone: the sums of the feature rows
  over each node's incoming edges; the reciprocal of the in-degree clamped below at one; the two first-layer weights
  transposed and stacked; the bias as a one-row matrix. These are the same operations, in the same order and on the
  same operands, as the corresponding stages of the reference program, so each array IS the reference's stage of the
  arguments. The region leaves its result array at the first layer's function of what it found. The host operations
  between the regions gather the rows of that array along the edges and sum them per node, transpose and stack the
  second-layer weights and reshape its bias; every other buffer they leave alone, and the first region leaves every
  buffer but its result as it found it. The program's result is the second layer's function of those arrays.
-/
import proofs.«147972_j29446295781810_2_alg».proof.Proof.Gen.KernelIdeal.Frame
import proofs.«147972_j29446295781810_2_alg».proof.Proof.Gen.ReferenceIdeal.Read
import proofs.«147972_j29446295781810_2_alg».proof.Proof.LayerOne
import proofs.«147972_j29446295781810_2_alg».proof.Proof.LayerTwo
import Idealize.ShloMosaic.Lib.StableHlo.Run
import Idealize.ShloMosaic.PureOps.Ideal.Laws

set_option maxRecDepth 16384
set_option maxHeartbeats 1000000

noncomputable section

namespace Cert.KernelIdeal.Whole

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The launch arguments on core `c` -/

abbrev arg0 : S50000x64.Idx → EReal := m ((c : Thread nD τ).loc main_arg0)
abbrev arg1 : S16x64.Idx → EReal := m ((c : Thread nD τ).loc main_arg1)
abbrev arg2 : S16x64.Idx → EReal := m ((c : Thread nD τ).loc main_arg2)
abbrev arg3 : S16.Idx → EReal := m ((c : Thread nD τ).loc main_arg3)
abbrev arg4 : S8x16.Idx → EReal := m ((c : Thread nD τ).loc main_arg4)
abbrev arg5 : S8x16.Idx → EReal := m ((c : Thread nD τ).loc main_arg5)
abbrev arg6 : S8.Idx → EReal := m ((c : Thread nD τ).loc main_arg6)
abbrev arg7 : S2x800000.Idx → BitVec 32 := m ((c : Thread nD τ).loc main_arg7)

/-- The reciprocal of the clamped in-degree, as a column. -/
abbrev scale (x7 : S2x800000.Idx → BitVec 32) : S50000x1.Idx → EReal :=
  Host.divf (F := Ideal) (φ := .f32) (val_main_v18 (F := Ideal)) (val_main_v19 (F := Ideal) x7)

/-- The two first-layer weights transposed and stacked. -/
abbrev weights1 (x1 x2 : S16x64.Idx → EReal) : S128x16.Idx → EReal :=
  concatenate S128x16 0 [⟨S64x16, val_main_v22 (F := Ideal) x1⟩, ⟨S64x16, val_main_v24 (F := Ideal) x2⟩]
    concatenates_S64x16_S64x16_S128x16_d0

/-- The two second-layer weights transposed and stacked. -/
abbrev weights2 (x4 x5 : S8x16.Idx → EReal) : S32x8.Idx → EReal :=
  concatenate S32x8 0 [⟨S16x8, val_main_v49 (F := Ideal) x4⟩, ⟨S16x8, val_main_v51 (F := Ideal) x5⟩]
    concatenates_S16x8_S16x8_S32x8_d0

/-- The rows of a hidden array `h` gathered along the edges and summed per node. -/
abbrev sums2 (h : S50000x16.Idx → EReal) (x7 : S2x800000.Idx → BitVec 32) : S50000x16.Idx → EReal :=
  Host.scatterAdd (F := Ideal) (φ := .f32) Cert.ReferenceIdeal.scatter_S50000x16_S800000x1_S800000x16_1_0_0_1
    (val_main_v38 (F := Ideal)) (val_main_v39 (F := Ideal) x7)
    (Host.gather (α := Ideal .f32) Cert.ReferenceIdeal.gather_S50000x16_S800000x1_S800000x16_1_0_n_n_0_1_116 h
      (val_main_v36 (F := Ideal) x7))

/-! ## What the first region finds -/

theorem v21_eq : (V1 m ρ c main_v21 : S50000x64.Idx → EReal) = val_main_v13 (F := Ideal) (arg0 m c) (arg7 m c) := by
  generalize hR : val_main_v13 (F := Ideal) (arg0 m c) (arg7 m c) = R
  dsimp only [V1, W1, W0, hostOps0]
  after_results_simp
  subst hR
  rfl

theorem v1arg0_eq : (V1 m ρ c main_arg0 : S50000x64.Idx → EReal) = arg0 m c := by
  generalize hR : arg0 m c = R
  dsimp only [V1, W1, W0, hostOps0]
  after_results_simp
  subst hR
  rfl

theorem v11_eq : (V1 m ρ c main_v11 : S50000x1.Idx → EReal) = scale (arg7 m c) := by
  generalize hR : scale (arg7 m c) = R
  dsimp only [V1, W1, W0, hostOps0]
  after_results_simp
  subst hR
  rfl

theorem v24_eq : (V1 m ρ c main_v24 : S128x16.Idx → EReal) = weights1 (arg1 m c) (arg2 m c) := by
  generalize hR : weights1 (arg1 m c) (arg2 m c) = R
  dsimp only [V1, W1, W0, hostOps0]
  after_results_simp
  subst hR
  rfl

theorem v25_eq : (V1 m ρ c main_v25 : S1x16.Idx → EReal) = shapeCast S1x16 (arg3 m c) shapeCasts_S16_S1x16 := by
  generalize hR : shapeCast S1x16 (arg3 m c) shapeCasts_S16_S1x16 = R
  dsimp only [V1, W1, W0, hostOps0]
  after_results_simp
  subst hR
  rfl

/-! ## Buffers the second stretch reads that the first stretch wrote or nobody wrote -/

theorem w1_v1 : (W1 m ρ c (Proc.devRef .tc main_v1) : S800000.Idx → BitVec 32) = val_main_v1 (F := Ideal) (arg7 m c) := by
  generalize hR : val_main_v1 (F := Ideal) (arg7 m c) = R
  dsimp only [W1, W0, hostOps0]
  after_results_simp
  subst hR
  rfl

theorem w1_v3 : (W1 m ρ c (Proc.devRef .tc main_v3) : S800000.Idx → BitVec 32) = val_main_v3 (F := Ideal) (arg7 m c) := by
  generalize hR : val_main_v3 (F := Ideal) (arg7 m c) = R
  dsimp only [W1, W0, hostOps0]
  after_results_simp
  subst hR
  rfl

theorem w1_arg4 : (W1 m ρ c (Proc.devRef .tc main_arg4) : S8x16.Idx → EReal) = arg4 m c := by
  generalize hR : arg4 m c = R
  dsimp only [W1, W0, hostOps0]
  after_results_simp
  subst hR
  rfl

theorem w1_arg5 : (W1 m ρ c (Proc.devRef .tc main_arg5) : S8x16.Idx → EReal) = arg5 m c := by
  generalize hR : arg5 m c = R
  dsimp only [W1, W0, hostOps0]
  after_results_simp
  subst hR
  rfl

theorem w1_arg6 : (W1 m ρ c (Proc.devRef .tc main_arg6) : S8.Idx → EReal) = arg6 m c := by
  generalize hR : arg6 m c = R
  dsimp only [W1, W0, hostOps0]
  after_results_simp
  subst hR
  rfl

/-! ## What the first region leaves -/

/-- The hidden array: the first layer's function of what the first region found. -/
theorem v26_eq : (V2 m ρ c main_v26 : S50000x16.Idx → EReal)
    = LayerOne.G0 (val_main_v13 (F := Ideal) (arg0 m c) (arg7 m c)) (arg0 m c) (scale (arg7 m c))
        (weights1 (arg1 m c) (arg2 m c)) (shapeCast S1x16 (arg3 m c) shapeCasts_S16_S1x16) := by
  refine ((W2_arr m ρ c 5).trans (LayerOne.final (V1 m ρ) c)).trans ?_
  rw [v21_eq, v1arg0_eq, v11_eq, v24_eq, v25_eq]

/-- The scale column is one of the first region's inputs: it comes out as it went in. -/
theorem v11_kept : (V2 m ρ c main_v11 : S50000x1.Idx → EReal) = scale (arg7 m c) :=
  ((W2_arr m ρ c 2).trans (((dat0 (V1 m ρ) c).arrAt_in 2 rfl _).trans (A_eq0 (V1 m ρ) c 2))).trans (v11_eq m ρ c)

/-! ## What the second region finds -/

theorem v37_eq : (V3 m ρ c main_v37 : S50000x16.Idx → EReal) = sums2 (V2 m ρ c main_v26) (arg7 m c) := by
  generalize hR : sums2 (V2 m ρ c main_v26) (arg7 m c) = R
  dsimp only [V3, W3, hostOps1]
  after_results_simp
  rw [W2_of_ne m ρ c main_v3 (by decide), W2_of_ne m ρ c main_v1 (by decide), w1_v1, w1_v3]
  subst hR
  rfl

theorem v3_26_eq : (V3 m ρ c main_v26 : S50000x16.Idx → EReal) = V2 m ρ c main_v26 := by
  generalize hR : (V2 m ρ c main_v26 : S50000x16.Idx → EReal) = R
  dsimp only [V3, W3, hostOps1]
  after_results_simp
  subst hR
  rfl

theorem v3_11_eq : (V3 m ρ c main_v11 : S50000x1.Idx → EReal) = scale (arg7 m c) := by
  refine Eq.trans ?_ (v11_kept m ρ c)
  generalize hR : (V2 m ρ c main_v11 : S50000x1.Idx → EReal) = R
  dsimp only [V3, W3, hostOps1]
  after_results_simp
  subst hR
  rfl

theorem v40_eq : (V3 m ρ c main_v40 : S32x8.Idx → EReal) = weights2 (arg4 m c) (arg5 m c) := by
  generalize hR : weights2 (arg4 m c) (arg5 m c) = R
  dsimp only [V3, W3, hostOps1]
  after_results
  rw [W2_of_ne m ρ c main_arg4 (by decide), W2_of_ne m ρ c main_arg5 (by decide), w1_arg4, w1_arg5]
  subst hR
  rfl

theorem v41_eq : (V3 m ρ c main_v41 : S1x8.Idx → EReal) = shapeCast S1x8 (arg6 m c) shapeCasts_S8_S1x8 := by
  generalize hR : shapeCast S1x8 (arg6 m c) shapeCasts_S8_S1x8 = R
  dsimp only [V3, W3, hostOps1]
  after_results
  rw [W2_of_ne m ρ c main_arg6 (by decide), w1_arg6]
  subst hR
  rfl

/-! ## The program's result -/

/-- The result buffer at the last boundary: the second layer's function of the hidden array, its per-node sums along
    the edges, the scale column, the stacked second-layer weights and the bias row. -/
theorem result_eq : (W4 m ρ c (Proc.devRef .tc main_v42) : S50000x8.Idx → EReal)
    = LayerTwo.G1 (sums2 (V2 m ρ c main_v26) (arg7 m c)) (V2 m ρ c main_v26) (scale (arg7 m c))
        (weights2 (arg4 m c) (arg5 m c)) (shapeCast S1x8 (arg6 m c) shapeCasts_S8_S1x8) := by
  refine ((W4_arr m ρ c 5).trans (LayerTwo.final (V3 m ρ) c)).trans ?_
  rw [v37_eq, v3_26_eq, v3_11_eq, v40_eq, v41_eq]

end Cert.KernelIdeal.Whole

end
-- ==== Proof.LibMeanScale.lean ====
/-
  The two arithmetic facts that join the kernel's layer to the reference's, on the extended reals.

  The mean over a node's incoming edges divides a sum `s` by `max cnt 1`. The reference divides; the kernel
  multiplies by the reciprocal `1 / max cnt 1` computed once. The divisor is at least one, hence not zero, and off
  zero the quotient is the product with the inverse, so both are `s · (max cnt 1)⁻¹` whatever `s` and `cnt` are,
  infinite or not. The layer then adds its bias before the second product (the reference) or after it (the kernel):
  addition of extended reals is commutative and associative. Imports only the library.
-/
import Idealize.ShloMosaic.PureOps.Ideal.Laws

namespace Idealize.ShloMosaic.MeanScale

open Idealize.ShloMosaic

/-- The f32 word of 1.0 denotes the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h, EReal.coe_one]

/-- A maximum with one is not zero. -/
theorem max_one_ne_zero (c : EReal) : max c (1 : EReal) ≠ 0 :=
  ne_of_gt (lt_of_lt_of_le zero_lt_one (le_max_right c 1))

/-- Multiplying by the reciprocal of `max c 1` is dividing by it, for every extended real `s` and `c`. -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  rw [ofBits_one]
  unfold Ideal.div
  rw [if_neg (max_one_ne_zero c), if_neg (max_one_ne_zero c), one_mul]

/-- The bias added after the second product or before it. -/
theorem bias_last (a x b : EReal) : (a + x) + b = (a + b) + x := add_right_comm a x b

end Idealize.ShloMosaic.MeanScale
-- ==== Proof.LibStackRows.lean ====
/-
  Two matrices with the same number of columns stacked one on top of the other, read at an entry.

  A concatenation along the row axis of an `[a, c]` matrix and a `[b, c]` matrix into an `[n, c]` one reads, at
  `(k', q)`, the first matrix at `(k, q)` when `k' = k` is one of its `a` rows, and the second at `(k, q)` when
  `k' = a + k`. Any extents and element type; imports only the library.
-/
import Idealize.ShloMosaic.Lib.Pipeline.Value
import Idealize.ShloMosaic.Lib.ValueIdx

namespace Idealize.ShloMosaic.StackRows

open Idealize.ShloMosaic Idealize.ShloMosaic.ValueIdx

variable {α : Type}

/-- A row of the upper matrix. -/
theorem upper_apply {a b n c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![n, c]⟩ (0 : Fin 2))
    (k : Fin a) (k' : Fin n) (q : Fin c) (hk : k'.val = k.val) :
    concatenate ⟨2, ![n, c]⟩ (0 : Fin 2) [⟨⟨2, ![a, c]⟩, x⟩, ⟨⟨2, ![b, c]⟩, y⟩] h (ix2 k' q) = x (ix2 k q) :=
  concatenate_pair_apply_left (0 : Fin 2) x y h (ix2 k' q) rfl (ix2 k q) (fun d => match d with
    | ⟨0, _⟩ => hk.symm
    | ⟨1, _⟩ => rfl)

/-- A row of the lower matrix. -/
theorem lower_apply {a b n c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![n, c]⟩ (0 : Fin 2))
    (k : Fin b) (k' : Fin n) (q : Fin c) (hk : k'.val = a + k.val) :
    concatenate ⟨2, ![n, c]⟩ (0 : Fin 2) [⟨⟨2, ![a, c]⟩, x⟩, ⟨⟨2, ![b, c]⟩, y⟩] h (ix2 k' q) = y (ix2 k q) :=
  concatenate_pair_apply_right (0 : Fin 2) x y h (ix2 k' q) rfl rfl (ix2 k q)
    (fun d hd => match d, hd with
      | ⟨0, _⟩, hd => absurd rfl hd
      | ⟨1, _⟩, _ => rfl)
    (by show k.val + a = k'.val; omega)

end Idealize.ShloMosaic.StackRows
-- ==== Proof.Join.lean ====
/-
  The two layers of the kernel program are the two layers of the reference, entry by entry on the extended reals.

  A layer's entry `(p, q)` in the kernel program is
  `(∑ₖ (s(p,k)·(1 / max(n(p), 1)))·W(k,q) + ∑ₖ f(p,k)·W(D+k,q)) + b(q)`, where `W` is the weight of the neighbour
  term transposed, stacked on the weight of the node's own term transposed, so `W(k,q) = Wl(q,k)` and
  `W(D+k,q) = Wr(q,k)`. In the reference it is `(∑ₖ (s(p,k) / max(n(p), 1))·Wl(q,k) + ∑ₖ f(p,k)·Wr(q,k)) + b(q)`.
  Term by term the first sums agree because multiplying by the reciprocal of `max(n, 1)`, which is not zero, is
  dividing by it, for every extended real `s` and `n`; the second sums and the bias are the same terms. No finiteness
  of the inputs is used. The first layer ends in a maximum with zero on both sides. The second layer takes the first
  layer's result as its features and its per-node sums along the edges as its neighbour sums, on both sides the same
  gather and scatter of the same array.
-/
import proofs.«147972_j29446295781810_2_alg».proof.Proof.KernelArrays
import proofs.«147972_j29446295781810_2_alg».proof.Proof.LibMeanScale
import proofs.«147972_j29446295781810_2_alg».proof.Proof.LibStackRows
import proofs.«147972_j29446295781810_2_alg».proof.Proof.LibOneRowMatrix
import Idealize.ShloMosaic.Lib.IdealHost

set_option maxRecDepth 16384
set_option maxHeartbeats 1000000

noncomputable section

namespace Cert.KernelIdeal.Whole

open Cert.KernelIdeal Cert.KernelIdeal.Gen Cert.ReferenceIdeal.Read
open Idealize.ShloMosaic Idealize.ShloMosaic.TcCoe Idealize.ShloMosaic.ValueIdx Idealize.SL.Sem

/-- The scale column at row `p`: the reciprocal of the clamped in-degree. -/
theorem scale_apply (x7 : S2x800000.Idx → BitVec 32) (p : Fin 50000) :
    scale x7 (ix2 p (0 : Fin 1))
      = Ideal.div (Ideal.ofBits .f32 0x3F800000#32)
          (max (val_main_v17 (F := Ideal) x7 (ix2 p (0 : Fin 1))) (Ideal.ofBits .f32 0x3F800000#32)) := by
  dsimp only [scale]
  rw [hostDivf_apply, val_main_v19_apply, val_main_v18_apply, val_main_cst_3_apply]
  simp only [Ideal.maximumf_def, Ideal.ofBits_def]

/-- The first layer. -/
theorem layer_one (x0 : S50000x64.Idx → EReal) (x1 x2 : S16x64.Idx → EReal) (x3 : S16.Idx → EReal)
    (x7 : S2x800000.Idx → BitVec 32) :
    LayerOne.G0 (val_main_v13 (F := Ideal) x0 x7) x0 (scale x7) (weights1 x1 x2) (shapeCast S1x16 x3 shapeCasts_S16_S1x16)
      = val_main_v30 (F := Ideal) x0 x1 x2 x3 x7 := by
  funext i
  obtain ⟨p, q, rfl⟩ : ∃ (p : Fin 50000) (q : Fin 16), i = ix2 p q := ⟨i 0, i 1, eq_ix2 i⟩
  rw [val_main_v30_apply, val_main_v29_apply, val_main_v26_apply, val_main_v23_apply, val_main_v25_apply,
    val_main_v28_apply, val_main_v27_apply, val_main_call0_v0_apply, val_main_call0_cst_apply]
  show max ((∑ k : Fin 64, (val_main_v13 (F := Ideal) x0 x7 (ix2 p k) * scale x7 (ix2 p (0 : Fin 1))) * weights1 x1 x2 (ix2 (LayerOne.lo k) q)
      + ∑ k : Fin 64, x0 (ix2 p k) * weights1 x1 x2 (ix2 (LayerOne.hi k) q))
      + shapeCast S1x16 x3 shapeCasts_S16_S1x16 (ix2 (0 : Fin 1) q)) (Ideal.ofBits .f32 0x00000000#32) = _
  refine congrArg₂ max (congrArg₂ (· + ·) (congrArg₂ (· + ·) (Finset.sum_congr rfl fun k _ => ?_)
    (Finset.sum_congr rfl fun k _ => ?_)) ?_) rfl
  · have el : lidx_main_v23 (ix2 p q) k = ix2 p k := funext fun a => Fin.ext (by match a with | ⟨0, _⟩ => rfl | ⟨1, _⟩ => rfl)
    have er : ridx_main_v23 (ix2 p q) k = ix2 k q := funext fun a => Fin.ext (by match a with | ⟨0, _⟩ => rfl | ⟨1, _⟩ => rfl)
    have e20 : idx_main_v20 (ix2 p k) = ix2 p (0 : Fin 1) := funext fun a => Fin.ext (by match a with | ⟨0, _⟩ => rfl | ⟨1, _⟩ => rfl)
    dsimp only [weights1]
    rw [el, er, val_main_v21_apply, val_main_v20_apply, e20, val_main_v19_apply, val_main_v18_apply, val_main_cst_3_apply,
      scale_apply, StackRows.upper_apply _ _ _ k (LayerOne.lo k) q rfl]
    simp only [Ideal.hostDivf_def, Ideal.maximumf_def, Ideal.ofBits_def]
    exact congrArg (· * val_main_v22 (F := Ideal) x1 (ix2 k q)) (MeanScale.mul_recip_eq_div _ _)
  · have el : lidx_main_v25 (ix2 p q) k = ix2 p k := funext fun a => Fin.ext (by match a with | ⟨0, _⟩ => rfl | ⟨1, _⟩ => rfl)
    have er : ridx_main_v25 (ix2 p q) k = ix2 k q := funext fun a => Fin.ext (by match a with | ⟨0, _⟩ => rfl | ⟨1, _⟩ => rfl)
    dsimp only [weights1]
    rw [el, er, StackRows.lower_apply _ _ _ k (LayerOne.hi k) q rfl]
  · have e : idx_main_v27 (idx_main_v28 (ix2 p q)) = ix1 q := funext fun a => Fin.ext (by match a with | ⟨0, _⟩ => rfl)
    rw [e, OneRowMatrix.row_of_vector]

/-- The reference computes the in-degree a second time for the second layer: the same sum of the same ones. -/
theorem degree_again (x7 : S2x800000.Idx → BitVec 32) :
    val_main_v44 (F := Ideal) x7 = val_main_v17 (F := Ideal) x7 := rfl

/-- The per-node sums of the first layer's rows along the edges are the reference's stage. -/
theorem sums2_ref (x0 : S50000x64.Idx → EReal) (x1 x2 : S16x64.Idx → EReal) (x3 : S16.Idx → EReal)
    (x7 : S2x800000.Idx → BitVec 32) :
    sums2 (val_main_v30 (F := Ideal) x0 x1 x2 x3 x7) x7 = val_main_v40 (F := Ideal) x0 x1 x2 x3 x7 := rfl

/-- The second layer, on the first layer's result. -/
theorem layer_two (x0 : S50000x64.Idx → EReal) (x1 x2 : S16x64.Idx → EReal) (x3 : S16.Idx → EReal)
    (x4 x5 : S8x16.Idx → EReal) (x6 : S8.Idx → EReal) (x7 : S2x800000.Idx → BitVec 32) :
    LayerTwo.G1 (sums2 (val_main_v30 (F := Ideal) x0 x1 x2 x3 x7) x7) (val_main_v30 (F := Ideal) x0 x1 x2 x3 x7)
        (scale x7) (weights2 x4 x5) (shapeCast S1x8 x6 shapeCasts_S8_S1x8)
      = val_main_v56 (F := Ideal) x0 x1 x2 x3 x4 x5 x6 x7 := by
  rw [sums2_ref]
  funext i
  obtain ⟨p, q, rfl⟩ : ∃ (p : Fin 50000) (q : Fin 8), i = ix2 p q := ⟨i 0, i 1, eq_ix2 i⟩
  rw [val_main_v56_apply, val_main_v53_apply, val_main_v50_apply, val_main_v52_apply, val_main_v55_apply,
    val_main_v54_apply]
  show (∑ k : Fin 16, (val_main_v40 (F := Ideal) x0 x1 x2 x3 x7 (ix2 p k) * scale x7 (ix2 p (0 : Fin 1)))
        * weights2 x4 x5 (ix2 (LayerTwo.lo k) q)
      + ∑ k : Fin 16, val_main_v30 (F := Ideal) x0 x1 x2 x3 x7 (ix2 p k) * weights2 x4 x5 (ix2 (LayerTwo.hi k) q))
      + shapeCast S1x8 x6 shapeCasts_S8_S1x8 (ix2 (0 : Fin 1) q) = _
  refine congrArg₂ (· + ·) (congrArg₂ (· + ·) (Finset.sum_congr rfl fun k _ => ?_)
    (Finset.sum_congr rfl fun k _ => ?_)) ?_
  · have el : lidx_main_v50 (ix2 p q) k = ix2 p k := funext fun a => Fin.ext (by match a with | ⟨0, _⟩ => rfl | ⟨1, _⟩ => rfl)
    have er : ridx_main_v50 (ix2 p q) k = ix2 k q := funext fun a => Fin.ext (by match a with | ⟨0, _⟩ => rfl | ⟨1, _⟩ => rfl)
    have e47 : idx_main_v47 (ix2 p k) = ix2 p (0 : Fin 1) := funext fun a => Fin.ext (by match a with | ⟨0, _⟩ => rfl | ⟨1, _⟩ => rfl)
    dsimp only [weights2]
    rw [el, er, val_main_v48_apply, val_main_v47_apply, e47, val_main_v46_apply, degree_again, val_main_v45_apply,
      val_main_cst_9_apply, scale_apply, StackRows.upper_apply _ _ _ k (LayerTwo.lo k) q rfl]
    simp only [Ideal.hostDivf_def, Ideal.maximumf_def, Ideal.ofBits_def]
    exact congrArg (· * val_main_v49 (F := Ideal) x4 (ix2 k q)) (MeanScale.mul_recip_eq_div _ _)
  · have el : lidx_main_v52 (ix2 p q) k = ix2 p k := funext fun a => Fin.ext (by match a with | ⟨0, _⟩ => rfl | ⟨1, _⟩ => rfl)
    have er : ridx_main_v52 (ix2 p q) k = ix2 k q := funext fun a => Fin.ext (by match a with | ⟨0, _⟩ => rfl | ⟨1, _⟩ => rfl)
    dsimp only [weights2]
    rw [el, er, StackRows.lower_apply _ _ _ k (LayerTwo.hi k) q rfl]
  · have e : idx_main_v54 (idx_main_v55 (ix2 p q)) = ix1 q := funext fun a => Fin.ext (by match a with | ⟨0, _⟩ => rfl)
    rw [e, OneRowMatrix.row_of_vector]

/-! ## The kernel program's result is the reference's last stage of the launch arguments -/

variable (m : (ℓ : Loc nD τ sig) → Buf (Elt Ideal) ℓ) (ρ : Dev nD → PrngReg) (c : Dev nD)

theorem result_is_reference : (W4 m ρ c (Proc.devRef .tc main_v42) : S50000x8.Idx → EReal)
    = val_main_v56 (F := Ideal) (arg0 m c) (arg1 m c) (arg2 m c) (arg3 m c) (arg4 m c) (arg5 m c) (arg6 m c) (arg7 m c) := by
  rw [result_eq, v26_eq, layer_one, layer_two]

end Cert.KernelIdeal.Whole

end
-- ==== Proof.lean ====
/-
  A two-layer neighbour-mean graph network on 50000 nodes and 800000 edges: the tiled kernel program against the
  plain reference, equal as extended reals.

  Both programs first compute, on the host, the sum `s` of the feature rows over each node's incoming edges (a gather of
  rows along the edges' sources and a scatter-add at their targets) and the in-degree `n` (a scatter-add of ones).
  A layer then maps features `f` to `(s / max(n, 1))·Wlᵀ + f·Wrᵀ + b`; the first layer is followed by a maximum with
  zero, and the second layer is fed the first layer's result and its per-node sums along the same edges.

  The reference does exactly that with two matrix products per layer. The kernel program computes the reciprocal
  `1 / max(n, 1)` once on the host and runs each layer as a kernel over 25 tiles of 2000 rows: the row of sums times the
  row's reciprocal is joined side by side with the row of features, multiplied by the two weights transposed and
  stacked, and the bias is added. The hidden array is stored in a narrower float format and widened again, which on
  the extended reals is the identity.

  The two agree entry by entry: a contraction over the joined columns is the sum of the contractions over its two
  halves; the stacked weight read in its upper half is the first weight transposed and in its lower half the second;
  and multiplying by the reciprocal of `max(n, 1)`, which is never zero, is dividing by it, for every extended real.
  Nothing here needs the inputs to be finite, and the gathers and scatters are never opened: both programs apply the
  same ones to the same arrays.

  The kernel program's run with its result named (KernelRun), what each kernel region leaves in its result array
  (LayerOne, LayerTwo), the arrays the regions find as the reference's stages of the arguments (KernelArrays) and the
  entry-by-entry comparison (Join) are separate modules; this file states the five claims.
-/
import proofs.«147972_j29446295781810_2_alg».proof.Defs
import proofs.«147972_j29446295781810_2_alg».proof.Proof.Gen.Kernel
import proofs.«147972_j29446295781810_2_alg».proof.Proof.Gen.Kernel.Skeleton
import proofs.«147972_j29446295781810_2_alg».proof.Proof.Gen.Kernel.Launch
import proofs.«147972_j29446295781810_2_alg».proof.Proof.Gen.Kernel.Points
import proofs.«147972_j29446295781810_2_alg».proof.Proof.Gen.Kernel.Frame
import proofs.«147972_j29446295781810_2_alg».proof.Proof.Gen.KernelIdeal
import proofs.«147972_j29446295781810_2_alg».proof.Proof.Gen.KernelIdeal.Skeleton
import proofs.«147972_j29446295781810_2_alg».proof.Proof.Gen.KernelIdeal.Launch
import proofs.«147972_j29446295781810_2_alg».proof.Proof.Gen.KernelIdeal.Points
import proofs.«147972_j29446295781810_2_alg».proof.Proof.Gen.KernelIdeal.Frame
import proofs.«147972_j29446295781810_2_alg».proof.Proof.Gen.ReferenceIdeal
import proofs.«147972_j29446295781810_2_alg».proof.Proof.Gen.ReferenceIdeal.Run
import proofs.«147972_j29446295781810_2_alg».proof.Proof.Gen.ReferenceIdeal.Read
import proofs.«147972_j29446295781810_2_alg».proof.Proof.Gen.Pre_finite_inputs
import proofs.«147972_j29446295781810_2_alg».proof.Proof.KernelRun
import proofs.«147972_j29446295781810_2_alg».proof.Proof.Join
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments in
    their result buffers: the kernel program by the comparison of the two layers, the reference by its own run. -/
theorem algebraic : Cert.algebraic_KernelIdeal_ReferenceIdeal := by
  intro m ρ m' ρ' _ hagree
  refine ⟨fun c => Cert.ReferenceIdeal.Read.val_main_v56 (F := Ideal)
      (Cert.KernelIdeal.Whole.arg0 m c) (Cert.KernelIdeal.Whole.arg1 m c) (Cert.KernelIdeal.Whole.arg2 m c)
      (Cert.KernelIdeal.Whole.arg3 m c) (Cert.KernelIdeal.Whole.arg4 m c) (Cert.KernelIdeal.Whole.arg5 m c)
      (Cert.KernelIdeal.Whole.arg6 m c) (Cert.KernelIdeal.Whole.arg7 m c), ?_, ?_⟩
  · exact (θ_run Cert.KernelIdeal.defs _ _).mono
      (fun r h c => ⟨(h c).1.trans (Cert.KernelIdeal.Whole.result_is_reference m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7⟩ := hagree c
    rw [(h c).1, Cert.ReferenceIdeal.Read.val_main_v56_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
